-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x4096 : Shape := ⟨3, ![2, 8192, 4096]⟩
abbrev S_ : Shape := ⟨0, ![]⟩

class Facts : Prop where
  bcast_S_S2x8192x4096 : S_.BroadcastsInDim S2x8192x4096 (![] : Fin 0 → Fin S2x8192x4096.rank)
  reducesTo_S2x8192x4096_S_d0_1_2 : S2x8192x4096.ReducesTo [0, 1, 2] S_
  h_S_ : 0 < S_.numel

variable [Facts]

def fn {F : FTy → Type} [FloatOps F] (main_arg0 : FVec F S2x8192x4096 .f32) : IVec S_ 1 :=
  let main_v0 : FVec F S2x8192x4096 .f32 := Host.absf main_arg0
  let main_cst : FVec F S_ .f32 := constant S_ .f32 0x7F800000#32
  let main_v1 : FVec F S2x8192x4096 .f32 := broadcastInDim S2x8192x4096 ![] bcast_S_S2x8192x4096 main_cst
  let main_v2 : IVec S2x8192x4096 1 := cmpf .olt main_v0 main_v1
  let main_c : IVec S_ 1 := constantI S_ 1 1#1
  let main_v3 : IVec S_ 1 := (fun x v => Host.reduce IntOp.andi x v reducesTo_S2x8192x4096_S_d0_1_2 h_S_) main_v2 main_c
  main_v3
-- ==== Kernel.lean ====
abbrev S2x8192x4096 : Shape := ⟨3, ![2, 8192, 4096]⟩
abbrev S16384x4096 : Shape := ⟨2, ![16384, 4096]⟩
abbrev S512x4096 : Shape := ⟨2, ![512, 4096]⟩

abbrev nBuf : Space → Nat
  | .hbm => 4
  | .vmem => 4
  | .smem => 0
  | _ => 0

abbrev bufTy : (tb : Table) → Fin (tcTables nBuf tb) → BufTy
  | .hbm, ⟨0, _⟩ => ⟨S2x8192x4096, .f32⟩
  | .hbm, ⟨1, _⟩ => ⟨S16384x4096, .f32⟩
  | .hbm, ⟨2, _⟩ => ⟨S16384x4096, .f32⟩
  | .hbm, ⟨3, _⟩ => ⟨S2x8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S2x8192x4096_S16384x4096 : S2x8192x4096.ShapeCasts S16384x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  shapeCasts_S16384x4096_S2x8192x4096 : S16384x4096.ShapeCasts S2x8192x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .f32 = 32 ∨ (Rect.block (s := S16384x4096) S512x4096.size (cc0_transform_1 i) (hinb0_1 i)).WholeWords (EltTy.packing .f32)

variable [Facts₀]

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2x8192x4096 : Shape := ⟨3, ![2, 8192, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S_, .f32⟩
  | .hbm, ⟨2, _⟩ => ⟨S2x8192x4096, .f32⟩
  | .hbm, ⟨3, _⟩ => ⟨S2x8192x4096, .i1⟩
  | .hbm, ⟨4, _⟩ => ⟨S_, .f32⟩
  | .hbm, ⟨5, _⟩ => ⟨S2x8192x4096, .f32⟩
  | .hbm, ⟨6, _⟩ => ⟨S2x8192x4096, .i1⟩
  | .hbm, ⟨7, _⟩ => ⟨S2x8192x4096, .i1⟩
  | .hbm, ⟨8, _⟩ => ⟨S2x8192x4096, .f32⟩
  | .hbm, ⟨9, _⟩ => ⟨S_, .f32⟩
  | .hbm, ⟨10, _⟩ => ⟨S2x8192x4096, .f32⟩
  | .hbm, ⟨11, _⟩ => ⟨S2x8192x4096, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S_S2x8192x4096 : S_.BroadcastsInDim S2x8192x4096 (![] : Fin 0 → Fin S2x8192x4096.rank)

variable [Facts₀]

class Facts : Prop extends Facts₀ where

variable [Facts]
-- ==== Proof.Spec.lean ====
/-
  The function both programs compute, one element at a time: the sine on the closed interval [-1, 1],
  prolonged by zero outside it,

      g(a) = sin a   if -1 ≤ a and a ≤ 1,      g(a) = 0   otherwise,

  read on the extended reals. The two comparisons are the ordered ones, their conjunction is the bitwise
  "and" of the two one-bit answers, and the choice between the two branches is made by that bit. The
  three literals are the words of -1, 1 and 0; they are never evaluated here: both programs spell
  the same three words.
-/
import Idealize.ShloMosaic.PureOps.Ideal

noncomputable section

namespace Cert.ZeroProlongation

open Idealize.ShloMosaic

/-- The sine on [-1, 1], zero elsewhere, of one extended real. -/
def sinOnUnit (a : Ideal .f32) : Ideal .f32 :=
  Scalar.select
    (IntOp.andi (FloatOps.cmpf .oge a (FloatOps.ofBits .f32 0xBF800000#32))
      (FloatOps.cmpf .ole a (FloatOps.ofBits .f32 0x3F800000#32)))
    (FloatOps.sin a) (FloatOps.ofBits .f32 0x00000000#32)

/-- The same function applied to every element of an array of any shape. -/
def sinOnUnitAll {s : Shape} (x : s.Idx → Ideal .f32) : s.Idx → Ideal .f32 := fun i => sinOnUnit (x i)

theorem sinOnUnitAll_apply {s : Shape} (x : s.Idx → Ideal .f32) (i : s.Idx) :
    sinOnUnitAll x i = sinOnUnit (x i) := rfl

/-- Applying a function element by element commutes with a change of shape that keeps the row-major
    order of the elements: both read the same element of the operand. -/
theorem sinOnUnitAll_shapeCast {s t : Shape} (x : s.Idx → Ideal .f32) (h : s.ShapeCasts t) :
    sinOnUnitAll (shapeCast t x h) = shapeCast t (sinOnUnitAll x) h := rfl

end Cert.ZeroProlongation

end
-- ==== Proof.RefIsSpec.lean ====
/-
  The reference computes the zero prolongation of the sine, element by element. Its eleven host
  operations are three scalar constants spread over the whole array (-1, 1 and 0), the two ordered
  comparisons of the argument against the first two, their conjunction, the host's sine of the
  argument, and the choice, by the conjunction, between that sine and the spread zero. Read at one index
  every operand is read at the same index (a spread scalar at its one element), so the result there is
  `sinOnUnit` of the argument's element. On the extended reals the host's sine and the kernel's sine
  are one function.
-/
import proofs.«146727_g38053410242590_cont_8to1_b_990_2_alg».proof.Proof.Gen.ReferenceIdeal.Read
import proofs.«146727_g38053410242590_cont_8to1_b_990_2_alg».proof.Proof.Spec

noncomputable section

namespace Cert.ZeroProlongation

open Idealize.ShloMosaic Cert.ReferenceIdeal Cert.ReferenceIdeal.Read

/-- The reference's result, as the composed term its run states, is the element-by-element function. -/
theorem reference_eq (x : S2x8192x4096.Idx → Ideal .f32) :
    val_main_v7 (F := Ideal) x = sinOnUnitAll x := by
  funext i
  rw [val_main_v7_apply, val_main_v4_apply, val_main_v1_apply, val_main_v3_apply, val_main_v5_apply,
    val_main_v0_apply, val_main_v2_apply, val_main_v6_apply, val_main_cst_apply, val_main_cst_0_apply,
    val_main_cst_1_apply]
  rfl

end Cert.ZeroProlongation

end
-- ==== Proof.KernelBlock.lean ====
/-
  What the kernel's body stores for one block. The body loads its whole 512 x 4096 input block, compares
  every element with -1 and with 1, takes the sine of every element and stores, element by element, the
  sine where both comparisons hold and zero elsewhere. The one change of shape in it is to the same
  shape, which is the identity; every other operation acts on each element alone. So the stored block
  is `sinOnUnit` of the loaded block, element by element.
-/
import proofs.«146727_g38053410242590_cont_8to1_b_990_2_alg».proof.Proof.Gen.KernelIdeal.Skeleton
import proofs.«146727_g38053410242590_cont_8to1_b_990_2_alg».proof.Proof.Spec
import Idealize.ShloMosaic.Lib.Pipeline.Value

noncomputable section

namespace Cert.ZeroProlongation

open Idealize.ShloMosaic Cert.KernelIdeal Cert.KernelIdeal.Gen

/-- The body's stored value is the element-by-element function of its loaded block. -/
theorem payload_eq (x : Vec Ideal S512x4096 .f32) : k0_pay1 (F := Ideal) x = sinOnUnitAll x := by
  unfold k0_pay1
  rw [shapeCast_self]
  rfl

end Cert.ZeroProlongation

end
-- ==== Proof.KernelArray.lean ====
/-
  From blocks to the array. The kernel's grid has 32 points; at point `t` the input window and the output
  window both sit on block (t, 0) of a 16384 x 4096 array, that is on rows 512 t .. 512 t + 511 and all
  columns. Point `t` writes back the body's result on the input block, which is the element-by-element
  function of that block, and that is block `t` of the element-by-element function of the whole input
  array: the two windows name the same rows. Every row r lies in the block of the point r / 512, so the
  32 blocks cover the output array, and after the run it holds the function of the input array at every
  index.
-/
import proofs.«146727_g38053410242590_cont_8to1_b_990_2_alg».proof.Proof.Gen.KernelIdeal.Frame
import proofs.«146727_g38053410242590_cont_8to1_b_990_2_alg».proof.Proof.KernelBlock
import Idealize.ShloMosaic.Lib.Pipeline.Value

set_option maxRecDepth 16384

noncomputable section

namespace Cert.ZeroProlongation

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-- The body's one load and one store start at the block's origin. -/
theorem origin : (![0, 0] : Fin 2 → Nat) = fun _ => 0 := funext fun a => by fin_cases a <;> rfl

/-- The two index maps, decided over the 32 points: both windows are on block (t, 0). -/
theorem windows_at : ∀ t : Fin cfg0.N, win0_0.index t (0 : Fin 2) = win0_1.index t (0 : Fin 2)
    ∧ win0_0.index t (1 : Fin 2) = win0_1.index t (1 : Fin 2)
    ∧ win0_1.index t (0 : Fin 2) = t.val
    ∧ win0_1.index t (1 : Fin 2) = 0 :=
  (by decide +kernel : ∀ t : Fin grid0.N, _)

/-- What point `t` writes back is block `t` of the element-by-element function of the input array. -/
theorem flushed_eq (c : Dev nD) (t : Fin cfg0.N) :
    (dats m 0 c).flushed 1 t
      = ((cfg0.win 1).blk t).view.read (Elt Ideal) (sinOnUnitAll (V m c main_v0)) := by
  show (cfg0.win 1).cut (grid0.coords t) ((dats m 0 c).after 1 t) = _
  rw [after0_1]
  unfold out0_1
  rw [View.canon_unit_zero origin]
  simp only [View.ld_unit_zero (S := S512x4096) origin]
  rw [payload_eq]
  obtain ⟨e0, e1, -, -⟩ := windows_at t
  funext j
  show sinOnUnit (V m c main_v0 (((cfg0.win 0).blk t).view.emb j))
    = sinOnUnit (V m c main_v0 (((cfg0.win 1).blk t).view.emb j))
  have h0 : ((cfg0.win 0).blk t).view.emb j = ((cfg0.win 1).blk t).view.emb j := by
    funext a; apply Fin.ext
    match a with
    | ⟨0, _⟩ =>
      show win0_0.index t (0 : Fin 2) * 512 + 1 * (j 0).val = win0_1.index t (0 : Fin 2) * 512 + 1 * (j 0).val
      omega
    | ⟨1, _⟩ =>
      show win0_0.index t (1 : Fin 2) * 4096 + 1 * (j 1).val = win0_1.index t (1 : Fin 2) * 4096 + 1 * (j 1).val
      omega
  rw [h0]

/-- An index of the output array is in point `t`'s block iff each coordinate is in the block's range. -/
theorem mem_block (t : Fin cfg0.N) (i : S16384x4096.Idx) :
    i ∈ ((cfg0.win 1).blk t).view.set ↔ ∀ a : Fin 2, win0_1.index t a * S512x4096.size a ≤ (i a).val
      ∧ (i a).val < win0_1.index t a * S512x4096.size a + S512x4096.size a := by
  show i ∈ ((View.whole main_v1).slice (win0_1.rect t)).set ↔ _
  rw [View.set_slice_whole, Rect.mem_set_unit]
  exact Iff.rfl

/-- Row r is in the block of the point r / 512: the blocks cover the output array. -/
theorem covered (i : S16384x4096.Idx) :
    ∃ t : Fin cfg0.N, (cfg0.win 1).flush t = true ∧ i ∈ ((cfg0.win 1).blk t).view.set := by
  have hi0 : (i 0).val < 16384 := (i 0).isLt
  have hi1 : (i 1).val < 4096 := (i 1).isLt
  have hN : cfg0.N = 32 := N_0
  let t : Fin cfg0.N := ⟨(i 0).val / 512, by rw [hN]; omega⟩
  obtain ⟨-, -, q0, q1⟩ := windows_at t
  have q0' : win0_1.index t (0 : Fin 2) = (i 0).val / 512 := q0
  refine ⟨t, flush0_1 t, ?_⟩
  rw [mem_block]
  intro a
  match a with
  | ⟨0, _⟩ =>
    show win0_1.index t (0 : Fin 2) * 512 ≤ (i 0).val ∧ (i 0).val < win0_1.index t (0 : Fin 2) * 512 + 512
    omega
  | ⟨1, _⟩ =>
    show win0_1.index t (1 : Fin 2) * 4096 ≤ (i 1).val ∧ (i 1).val < win0_1.index t (1 : Fin 2) * 4096 + 4096
    omega

/-- The output array after the run is the element-by-element function of the input array as the kernel
    finds it. -/
theorem output_array (c : Dev nD) :
    (dats m 0 c).arrAt 1 cfg0.N = sinOnUnitAll (V m c main_v0) :=
  (dats m 0 c).arrAt_eq_of_cover 1 (sinOnUnitAll (V m c main_v0)) (fun t _ => flushed_eq m c t) covered

end Cert.ZeroProlongation

end
-- ==== Proof.KernelRun.lean ====
/-
  The kernel's whole program: the argument of shape [2, 8192, 4096] is re-laid, in row-major order, as
  16384 rows of 4096; the kernel maps the rows block by block; the result is re-laid back to
  [2, 8192, 4096]. The kernel's output array holds the element-by-element function of its input array
  (the 32 blocks cover it), a function applied element by element commutes with a re-laying that keeps
  the row-major order, and re-laying there and back is the identity. So the program's result is the
  element-by-element function of its argument, and the argument is left as it was.
-/
import proofs.«146727_g38053410242590_cont_8to1_b_990_2_alg».proof.Proof.KernelArray
import Idealize.ShloMosaic.Lib.StableHlo.Run
import Idealize.ShloMosaic.Lib.Pipeline.Value

set_option maxRecDepth 16384

noncomputable section

namespace Cert.ZeroProlongation

open Idealize.ShloMosaic Idealize.ShloMosaic.TcCoe Idealize.SL.Sem Cert.KernelIdeal Cert.KernelIdeal.Gen
open Idealize.ShloMosaic.StableHlo

variable (m : (ℓ : Loc nD τ sig) → Buf (Elt Ideal) ℓ) (ρ : Dev nD → PrngReg)

/-- Re-laying an array, applying the function element by element, and re-laying back is applying the
    function to the array: the function commutes with each re-laying, and there and back is the identity. -/
theorem relay_back {s t : Shape} (x : s.Idx → Ideal .f32) (h : s.ShapeCasts t) (h' : t.ShapeCasts s) :
    shapeCast s (sinOnUnitAll (shapeCast t x h)) h' = sinOnUnitAll x := by
  rw [sinOnUnitAll_shapeCast]
  exact shapeCast_shapeCast _ _ _

/-- The input array as the kernel finds it is the argument re-laid as 16384 rows. -/
theorem input_array (c : Dev nD) :
    (V m c main_v0 : S16384x4096.Idx → Ideal .f32)
      = shapeCast S16384x4096 (m ((c : Thread nD τ).loc main_arg0)) Facts₀.shapeCasts_S2x8192x4096_S16384x4096 := by
  show StableHlo.after hostOps0 (fun b => m (c, b)) (Proc.devRef .tc main_v0) = _
  after_results
  rfl

/-- The program's result: the output array re-laid back, which is the element-by-element function of the
    argument. -/
theorem result_array (c : Dev nD) :
    (Pipeline.afterTail₀ cfgs (dats m) 0 (V0 m) [hostOps1] c main_v2 : S2x8192x4096.Idx → Ideal .f32)
      = sinOnUnitAll (m ((c : Thread nD τ).loc main_arg0)) := by
  have hw : Pipeline.withArrays spec0 c (V0 m c) (fun w => (dats m 0 c).arrAt w cfg0.N) (Proc.devRef .tc main_v1)
      = sinOnUnitAll (V m c main_v0) :=
    (Pipeline.withArrays_arr spec0 launch0.win.arr_inj c _ _ 1).trans (output_array m c)
  unfold Pipeline.afterTail₀
  show StableHlo.after hostOps1 _ (Proc.devRef .tc main_v2) = _
  after_results
  rw [hw, input_array]
  exact relay_back _ _ _

/-- Every weakly fair execution of the kernel's program terminates with the result at the
    element-by-element function of the argument and the argument unchanged. -/
theorem run : θ_run defs (onTc (τ := τ) (main (F := Ideal))) ⟨m, fun _ => 0, ρ⟩ fun r => ∀ c : Dev nD,
      r.2.mem ((c : Thread nD τ).loc main_v2) = sinOnUnitAll (m ((c : Thread nD τ).loc main_arg0))
      ∧ r.2.mem ((c : Thread nD τ).loc main_arg0) = m ((c : Thread nD τ).loc main_arg0) :=
  (θ_run defs _ _).mono (fun _ h c =>
      ⟨((h c).2 main_v2 (Pipeline.mem_restRefs_of main_v2 (by decide) (by decide))).trans (result_array m c),
       ((h c).2 main_arg0 (Pipeline.mem_restRefs_of main_arg0 (by decide) (by decide))).trans (W_main_arg0 m (dats m) c)⟩)
    (run_main m ρ)

end Cert.ZeroProlongation

end
-- ==== Proof.lean ====
/-
  The kernel computes, over a float32 array of shape [2, 8192, 4096], the sine on the closed interval
  [-1, 1] prolonged by zero: res = sin x where -1 ≤ x and x ≤ 1, and 0 elsewhere. It re-lays the array as
  16384 rows of 4096, maps the rows in 32 blocks of 512 rows, and re-lays the result back. The reference
  is the same choice written with whole-array operations. On the extended reals both are the function
  `sinOnUnit` applied to every element: the same two ordered comparisons against the same words of -1
  and 1, the same sine (the host's and the kernel's are one function there), the same word of 0. No
  algebraic law is needed and the inputs' finiteness is not used.

  Frames: the kernel's two frames are the generated ones; the reference's is its generated run with the
  result dropped. The idealization rewrote nothing, so there is nothing to preserve. The value claim
  puts the kernel's run (`ZeroProlongation.run`) beside the reference's generated run, whose result
  term is the same function of an argument that agrees.
-/
import proofs.«146727_g38053410242590_cont_8to1_b_990_2_alg».proof.Defs
import proofs.«146727_g38053410242590_cont_8to1_b_990_2_alg».proof.Proof.Gen.Kernel
import proofs.«146727_g38053410242590_cont_8to1_b_990_2_alg».proof.Proof.Gen.Kernel.Skeleton
import proofs.«146727_g38053410242590_cont_8to1_b_990_2_alg».proof.Proof.Gen.Kernel.Launch
import proofs.«146727_g38053410242590_cont_8to1_b_990_2_alg».proof.Proof.Gen.Kernel.Points
import proofs.«146727_g38053410242590_cont_8to1_b_990_2_alg».proof.Proof.Gen.Kernel.Frame
import proofs.«146727_g38053410242590_cont_8to1_b_990_2_alg».proof.Proof.Gen.KernelIdeal
import proofs.«146727_g38053410242590_cont_8to1_b_990_2_alg».proof.Proof.Gen.KernelIdeal.Skeleton
import proofs.«146727_g38053410242590_cont_8to1_b_990_2_alg».proof.Proof.Gen.KernelIdeal.Launch
import proofs.«146727_g38053410242590_cont_8to1_b_990_2_alg».proof.Proof.Gen.KernelIdeal.Points
import proofs.«146727_g38053410242590_cont_8to1_b_990_2_alg».proof.Proof.Gen.KernelIdeal.Frame
import proofs.«146727_g38053410242590_cont_8to1_b_990_2_alg».proof.Proof.Gen.ReferenceIdeal
import proofs.«146727_g38053410242590_cont_8to1_b_990_2_alg».proof.Proof.Gen.Pre_finite_inputs
import proofs.«146727_g38053410242590_cont_8to1_b_990_2_alg».proof.Proof.Gen.ReferenceIdeal.Run
import proofs.«146727_g38053410242590_cont_8to1_b_990_2_alg».proof.Proof.Gen.ReferenceIdeal.Read
import proofs.«146727_g38053410242590_cont_8to1_b_990_2_alg».proof.Proof.RefIsSpec
import proofs.«146727_g38053410242590_cont_8to1_b_990_2_alg».proof.Proof.KernelRun
import Idealize.ShloMosaic.Adequacy
import Idealize.ShloMosaic.Init

noncomputable section

namespace Cert.Proof

open Idealize.ShloMosaic Idealize.SL.Sem

/-- The word-level kernel runs and leaves its argument unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its argument unchanged: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the zero prolongation of the sine of the argument, element by element. -/
theorem algebraic : Cert.algebraic_KernelIdeal_ReferenceIdeal := by
  intro m ρ m' ρ' _ hagree
  refine ⟨_, Cert.ZeroProlongation.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ZeroProlongation.reference_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
